-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S768x12 : Shape := ⟨2, ![768, 12]⟩
abbrev S768x768 : Shape := ⟨2, ![768, 768]⟩
abbrev S768 : Shape := ⟨1, ![768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S768x12 : S_.BroadcastsInDim S768x12 (![] : Fin 0 → Fin S768x12.rank)
  reducesTo_S768x12_S_d0_1 : S768x12.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x512x768 .f32) (main_arg1 : FVec F S768x12 .f32) (main_arg2 : FVec F S768x768 .f32) (main_arg3 : FVec F S768 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S768x12 .f32 := Host.absf main_arg1
  let main_cst_0 : FVec F S_ .f32 := constant S_ .f32 0x7F800000#32
  let main_v5 : FVec F S768x12 .f32 := broadcastInDim S768x12 ![] bcast_S_S768x12 main_cst_0
  let main_v6 : IVec S768x12 1 := cmpf .olt main_v4 main_v5
  let main_c_1 : IVec S_ 1 := constantI S_ 1 1#1
  let main_v7 : IVec S_ 1 := (fun x v => Host.reduce IntOp.andi x v reducesTo_S768x12_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x512x768 : Shape := ⟨3, ![8, 512, 768]⟩
abbrev S768x12 : Shape := ⟨2, ![768, 12]⟩
abbrev S768x768 : Shape := ⟨2, ![768, 768]⟩
abbrev S768 : Shape := ⟨1, ![768]⟩
abbrev S4096x768 : Shape := ⟨2, ![4096, 768]⟩
abbrev S12x768 : Shape := ⟨2, ![12, 768]⟩
abbrev S1x768 : Shape := ⟨2, ![1, 768]⟩
abbrev S4096x9216 : Shape := ⟨2, ![4096, 9216]⟩
abbrev S256x768 : Shape := ⟨2, ![256, 768]⟩
abbrev S256x9216 : Shape := ⟨2, ![256, 9216]⟩
abbrev S8x512x12x768 : Shape := ⟨4, ![8, 512, 12, 768]⟩

abbrev nBuf : Space → Nat
  | .hbm => 11
  | .vmem => 7
  | .smem => 0
  | _ => 0

abbrev bufTy : (tb : Table) → Fin (tcTables nBuf tb) → BufTy
  | .hbm, ⟨0, _⟩ => ⟨S8x512x768, .f32⟩
  | .hbm, ⟨1, _⟩ => ⟨S768x12, .f32⟩
  | .hbm, ⟨2, _⟩ => ⟨S768x768, .f32⟩
  | .hbm, ⟨3, _⟩ => ⟨S768, .f32⟩
  | .hbm, ⟨4, _⟩ => ⟨S4096x768, .f32⟩
  | .hbm, ⟨5, _⟩ => ⟨S12x768, .f32⟩
  | .hbm, ⟨6, _⟩ => ⟨S768x768, .f32⟩
  | .hbm, ⟨7, _⟩ => ⟨S768x768, .bf16⟩
  | .hbm, ⟨8, _⟩ => ⟨S1x768, .f32⟩
  | .hbm, ⟨9, _⟩ => ⟨S4096x9216, .f32⟩
  | .hbm, ⟨10, _⟩ => ⟨S8x512x12x768, .f32⟩
  | .local _ .vmem, ⟨0, _⟩ => ⟨S256x768, .f32⟩
  | .local _ .vmem, ⟨1, _⟩ => ⟨S256x768, .f32⟩
  | .local _ .vmem, ⟨2, _⟩ => ⟨S12x768, .f32⟩
  | .local _ .vmem, ⟨3, _⟩ => ⟨S768x768, .bf16⟩
  | .local _ .vmem, ⟨4, _⟩ => ⟨S1x768, .f32⟩
  | .local _ .vmem, ⟨5, _⟩ => ⟨S256x9216, .f32⟩
  | .local _ .vmem, ⟨6, _⟩ => ⟨S256x9216, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x9216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x512x768_S4096x768 : S8x512x768.ShapeCasts S4096x768
  transposes_S768x12_S12x768_1_0 : S768x12.Transposes [1, 0] S12x768
  transposes_S768x768_S768x768_1_0 : S768x768.Transposes [1, 0] S768x768
  bitsLt_bf16_f32 : FTy.bits .bf16 < FTy.bits .f32
  shapeCasts_S768_S1x768 : S768.ShapeCasts S1x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S12x768_S12x768_0_0 : ∀ a, (![0, 0] : Fin 2 → Nat) a + S12x768.size a ≤ S12x768.size a
  h_S12x768 : 0 < S12x768.numel
  shapeCasts_S12x768_S12x768 : S12x768.ShapeCasts S12x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  slices_S12x768_o0_0_S1x768 : S12x768.Slices ![0, 0] S1x768
  shapeCasts_S1x768_S768 : S1x768.ShapeCasts S768
  broadcasts_S1x768_S256x768 : S1x768.Broadcasts S256x768
  inb_S256x9216_S256x768_0_0 : ∀ a, (![0, 0] : Fin 2 → Nat) a + S256x768.size a ≤ S256x9216.size a
  slices_S12x768_o1_0_S1x768 : S12x768.Slices ![1, 0] S1x768
  inb_S256x9216_S256x768_0_768 : ∀ a, (![0, 768] : Fin 2 → Nat) a + S256x768.size a ≤ S256x9216.size a
  slices_S12x768_o2_0_S1x768 : S12x768.Slices ![2, 0] S1x768
  inb_S256x9216_S256x768_0_1536 : ∀ a, (![0, 1536] : Fin 2 → Nat) a + S256x768.size a ≤ S256x9216.size a
  slices_S12x768_o3_0_S1x768 : S12x768.Slices ![3, 0] S1x768
  inb_S256x9216_S256x768_0_2304 : ∀ a, (![0, 2304] : Fin 2 → Nat) a + S256x768.size a ≤ S256x9216.size a
  slices_S12x768_o4_0_S1x768 : S12x768.Slices ![4, 0] S1x768
  inb_S256x9216_S256x768_0_3072 : ∀ a, (![0, 3072] : Fin 2 → Nat) a + S256x768.size a ≤ S256x9216.size a
  slices_S12x768_o5_0_S1x768 : S12x768.Slices ![5, 0] S1x768
  inb_S256x9216_S256x768_0_3840 : ∀ a, (![0, 3840] : Fin 2 → Nat) a + S256x768.size a ≤ S256x9216.size a
  slices_S12x768_o6_0_S1x768 : S12x768.Slices ![6, 0] S1x768
  inb_S256x9216_S256x768_0_4608 : ∀ a, (![0, 4608] : Fin 2 → Nat) a + S256x768.size a ≤ S256x9216.size a
  slices_S12x768_o7_0_S1x768 : S12x768.Slices ![7, 0] S1x768
  inb_S256x9216_S256x768_0_5376 : ∀ a, (![0, 5376] : Fin 2 → Nat) a + S256x768.size a ≤ S256x9216.size a
  slices_S12x768_o8_0_S1x768 : S12x768.Slices ![8, 0] S1x768
  inb_S256x9216_S256x768_0_6144 : ∀ a, (![0, 6144] : Fin 2 → Nat) a + S256x768.size a ≤ S256x9216.size a
  slices_S12x768_o9_0_S1x768 : S12x768.Slices ![9, 0] S1x768
  inb_S256x9216_S256x768_0_6912 : ∀ a, (![0, 6912] : Fin 2 → Nat) a + S256x768.size a ≤ S256x9216.size a
  slices_S12x768_o10_0_S1x768 : S12x768.Slices ![10, 0] S1x768
  inb_S256x9216_S256x768_0_7680 : ∀ a, (![0, 7680] : Fin 2 → Nat) a + S256x768.size a ≤ S256x9216.size a
  slices_S12x768_o11_0_S1x768 : S12x768.Slices ![11, 0] S1x768
  inb_S256x9216_S256x768_0_8448 : ∀ a, (![0, 8448] : Fin 2 → Nat) a + S256x768.size a ≤ S256x9216.size a
  shapeCasts_S4096x9216_S8x512x12x768 : S4096x9216.ShapeCasts S8x512x12x768
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S4096x768.size a
  hwx0_0 : ∀ i : grid0.Coords, EltTy.bits .f32 = 32 ∨ (Rect.block (s := S4096x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x768.size a ≤ S12x768.size a
  hwx0_1 : ∀ i : grid0.Coords, EltTy.bits .f32 = 32 ∨ (Rect.block (s := S12x768) S12x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x9216.size a ≤ S4096x9216.size a
  hwx0_4 : ∀ i : grid0.Coords, EltTy.bits .f32 = 32 ∨ (Rect.block (s := S4096x9216) S256x9216.size (cc0_transform_4 i) (hinb0_4 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x9216.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x768 : Shape := ⟨3, ![8, 512, 768]⟩
abbrev S768x12 : Shape := ⟨2, ![768, 12]⟩
abbrev S768x768 : Shape := ⟨2, ![768, 768]⟩
abbrev S768 : Shape := ⟨1, ![768]⟩
abbrev S8x512x1x768 : Shape := ⟨4, ![8, 512, 1, 768]⟩
abbrev S12x768 : Shape := ⟨2, ![12, 768]⟩
abbrev S1x1x12x768 : Shape := ⟨4, ![1, 1, 12, 768]⟩
abbrev S8x512x12x768 : Shape := ⟨4, ![8, 512, 12, 768]⟩
abbrev S1x1x1x768 : Shape := ⟨4, ![1, 1, 1, 768]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S768x12, .f32⟩
  | .hbm, ⟨2, _⟩ => ⟨S768x768, .f32⟩
  | .hbm, ⟨3, _⟩ => ⟨S768, .f32⟩
  | .hbm, ⟨4, _⟩ => ⟨S8x512x1x768, .f32⟩
  | .hbm, ⟨5, _⟩ => ⟨S12x768, .f32⟩
  | .hbm, ⟨6, _⟩ => ⟨S1x1x12x768, .f32⟩
  | .hbm, ⟨7, _⟩ => ⟨S8x512x12x768, .f32⟩
  | .hbm, ⟨8, _⟩ => ⟨S8x512x12x768, .f32⟩
  | .hbm, ⟨9, _⟩ => ⟨S8x512x12x768, .f32⟩
  | .hbm, ⟨10, _⟩ => ⟨S8x512x12x768, .f32⟩
  | .hbm, ⟨11, _⟩ => ⟨S1x1x1x768, .f32⟩
  | .hbm, ⟨12, _⟩ => ⟨S8x512x12x768, .f32⟩
  | .hbm, ⟨13, _⟩ => ⟨S8x512x12x768, .f32⟩
  | .hbm, ⟨14, _⟩ => ⟨S_, .f32⟩
  | .hbm, ⟨15, _⟩ => ⟨S8x512x12x768, .f32⟩
  | .hbm, ⟨16, _⟩ => ⟨S8x512x12x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S8x512x768_S8x512x1x768_0_1_3 : S8x512x768.BroadcastsInDim S8x512x1x768 (![0, 1, 3] : Fin 3 → Fin S8x512x1x768.rank)
  transposes_S768x12_S12x768_1_0 : S768x12.Transposes [1, 0] S12x768
  bcast_S12x768_S1x1x12x768_2_3 : S12x768.BroadcastsInDim S1x1x12x768 (![2, 3] : Fin 2 → Fin S1x1x12x768.rank)
  bcast_S8x512x1x768_S8x512x12x768_0_1_2_3 : S8x512x1x768.BroadcastsInDim S8x512x12x768 (![0, 1, 2, 3] : Fin 4 → Fin S8x512x12x768.rank)
  bcast_S1x1x12x768_S8x512x12x768_0_1_2_3 : S1x1x12x768.BroadcastsInDim S8x512x12x768 (![0, 1, 2, 3] : Fin 4 → Fin S8x512x12x768.rank)
  bcast_S768_S1x1x1x768_3 : S768.BroadcastsInDim S1x1x1x768 (![3] : Fin 1 → Fin S1x1x1x768.rank)
  bcast_S1x1x1x768_S8x512x12x768_0_1_2_3 : S1x1x1x768.BroadcastsInDim S8x512x12x768 (![0, 1, 2, 3] : Fin 4 → Fin S8x512x12x768.rank)
  bcast_S_S8x512x12x768 : S_.BroadcastsInDim S8x512x12x768 (![] : Fin 0 → Fin S8x512x12x768.rank)
  dot_S8x512x12x768_S768x768_S8x512x12x768_3_1_012_0_n_n_wf : DotDims.WF S8x512x12x768 S768x768 S8x512x12x768 [3] [1] [0, 1, 2] [0] [] []

variable [Facts₀]

def dot_S8x512x12x768_S768x768_S8x512x12x768_3_1_012_0_n_n : DotDims S8x512x12x768 S768x768 S8x512x12x768 where
  lhsContracting := [3]
  rhsContracting := [1]
  lhsNonContracting := [0, 1, 2]
  rhsNonContracting := [0]
  lhsBatch := []
  rhsBatch := []
  wf := dot_S8x512x12x768_S768x768_S8x512x12x768_3_1_012_0_n_n_wf

class Facts : Prop extends Facts₀ where

variable [Facts]
-- ==== Proof.LibMatmulIdx.lean ====
/-
  A matrix product accumulated into zeros, read at one output index, as a plain sum over ONE contraction coordinate
  `k : Fin n` of a left entry times a right entry — for any dimension numbers that contract a single axis of extent
  `n`, once the two operand indices at the output index and at `k` have been named (`li k`, `ri k`). On the extended
  reals the products' sum has no rounding and no chunk order left in it, so this is all a product says.
-/
import Idealize.ShloMosaic.PureOps.Ideal.Laws
import Idealize.ShloMosaic.Lib.ValueIdx

noncomputable section

namespace Idealize.ShloMosaic.ValueIdx

open Idealize.ShloMosaic

/-- The matrix unit's product into a zero accumulator, at output index `j`: the sum over the contraction coordinate
    of the left operand at `li k` times the right operand at `ri k`. -/
theorem matmul_zero_apply_of_idx {sl sr so : Shape} {φ₁ φ₂ : FTy} (D : DotDims sl sr so) (n : ℕ) (hr : D.contr.rank = 1)
    (hs : D.contr.size ⟨0, by omega⟩ = n) (prec : Option ContractPrecision) (lhs : FVec Ideal sl φ₁)
    (rhs : FVec Ideal sr φ₂) (j : so.Idx) (li : Fin n → sl.Idx) (ri : Fin n → sr.Idx)
    (hl : ∀ k : Fin n, D.lhsIdx j ((contrEquiv1 D n hr hs).symm k) = li k)
    (hri : ∀ k : Fin n, D.rhsIdx j ((contrEquiv1 D n hr hs).symm k) = ri k) :
    FloatOps.matmul D prec lhs rhs (constant so .f32 0x00000000#32) j = ∑ k : Fin n, lhs (li k) * rhs (ri k) := by
  rw [Ideal.matmul_constant_zero_apply, ← Equiv.sum_comp (contrEquiv1 D n hr hs).symm]
  exact Finset.sum_congr rfl fun k _ => by rw [hl k, hri k]

end Idealize.ShloMosaic.ValueIdx

end
-- ==== Proof.SpanEntry.lean ====
/-
  One entry of one span.

  For a span `s` the body takes row `s` of the transposed query segments (a [1,768] row), multiplies the row tile
  `h` by it entry by entry along the hidden axis, multiplies that product by the transposed weight on the matrix
  unit into zeros, adds the bias row and clamps at zero. Read at row `p` and column `e` of the span's [256,768]
  result, on the extended reals this is

      max (Σ_k (h[p,k] · q[s,k]) · wt[k,e] + b[0,e]) 0 .

  The narrowing of the product to bf16 before the matrix unit is the identity on the extended reals, and the matrix
  unit's product into zeros is the plain sum over the hidden axis.
-/
import proofs.«109428_j5995774345592_2_alg».proof.Proof.Gen.KernelIdeal.Skeleton
import proofs.«109428_j5995774345592_2_alg».proof.Proof.LibMatmulIdx
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Span

open Idealize.ShloMosaic Idealize.ShloMosaic.ValueIdx Cert.KernelIdeal Cert.KernelIdeal.Gen

/-- Entry `(p, e)` of span `s`: the clamped sum over the hidden axis `k` of `(h[p,k] · q[s,k]) · wt[k,e]`, plus the
    bias at `e`. -/
def entry (h : FVec Ideal S256x768 .f32) (q : FVec Ideal S12x768 .f32) (wt : FVec Ideal S768x768 .bf16)
    (b : FVec Ideal S1x768 .f32) (s : Fin 12) (p : Fin 256) (e : Fin 768) : EReal :=
  max ((∑ k : Fin 768, (h (ix2 p k) * q (ix2 s k)) * wt (ix2 k e)) + b (ix2 (0 : Fin 1) e)) 0

/-- The matrix unit's left operand index keeps the output's row. -/
theorem lhs_row (j : S256x768.Idx) (q : dot_S256x768_S768x768_S256x768_1_0_0_1_n_n.contr.Idx) :
    (dot_S256x768_S768x768_S256x768_1_0_0_1_n_n.lhsIdx j q 0).val = (j 0).val := by
  unfold DotDims.lhsIdx
  rw [dif_neg (show ¬(0 : Fin S256x768.rank) ∈ dot_S256x768_S768x768_S256x768_1_0_0_1_n_n.lhsBatch by decide),
    dif_pos (show (0 : Fin S256x768.rank) ∈ dot_S256x768_S768x768_S256x768_1_0_0_1_n_n.lhsNonContracting by decide)]
  rfl
/-- Its column is the hidden coordinate. -/
theorem lhs_col (j : S256x768.Idx) (q : dot_S256x768_S768x768_S256x768_1_0_0_1_n_n.contr.Idx) :
    (dot_S256x768_S768x768_S256x768_1_0_0_1_n_n.lhsIdx j q 1).val = (q ⟨0, by decide⟩).val :=
  dot_S256x768_S768x768_S256x768_1_0_0_1_n_n.lhsIdx_val_of_single rfl j q
/-- The right operand index's row is the hidden coordinate. -/
theorem rhs_row (j : S256x768.Idx) (q : dot_S256x768_S768x768_S256x768_1_0_0_1_n_n.contr.Idx) :
    (dot_S256x768_S768x768_S256x768_1_0_0_1_n_n.rhsIdx j q 0).val = (q ⟨0, by decide⟩).val :=
  dot_S256x768_S768x768_S256x768_1_0_0_1_n_n.rhsIdx_val_of_single rfl j q
/-- Its column is the output's column. -/
theorem rhs_col (j : S256x768.Idx) (q : dot_S256x768_S768x768_S256x768_1_0_0_1_n_n.contr.Idx) :
    (dot_S256x768_S768x768_S256x768_1_0_0_1_n_n.rhsIdx j q 1).val = (j 1).val := by
  unfold DotDims.rhsIdx
  rw [dif_neg (show ¬(1 : Fin S768x768.rank) ∈ dot_S256x768_S768x768_S256x768_1_0_0_1_n_n.rhsBatch by decide),
    dif_pos (show (1 : Fin S768x768.rank) ∈ dot_S256x768_S768x768_S256x768_1_0_0_1_n_n.rhsNonContracting by decide)]
  rfl

/-- The matrix unit's left operand index at output `(p, e)` and hidden coordinate `k` is `(p, k)`. -/
theorem lhs_idx (p : Fin 256) (e : Fin 768) (k : Fin 768) :
    dot_S256x768_S768x768_S256x768_1_0_0_1_n_n.lhsIdx (ix2 p e)
      ((contrEquiv1 dot_S256x768_S768x768_S256x768_1_0_0_1_n_n 768 rfl rfl).symm k) = ix2 p k :=
  funext fun a => Fin.ext (by
    match a with
    | ⟨0, _⟩ => exact lhs_row _ _
    | ⟨1, _⟩ => exact (lhs_col _ _).trans (contrEquiv1_symm_val dot_S256x768_S768x768_S256x768_1_0_0_1_n_n 768 rfl rfl k))

/-- The right operand index there is `(k, e)`. -/
theorem rhs_idx (p : Fin 256) (e : Fin 768) (k : Fin 768) :
    dot_S256x768_S768x768_S256x768_1_0_0_1_n_n.rhsIdx (ix2 p e)
      ((contrEquiv1 dot_S256x768_S768x768_S256x768_1_0_0_1_n_n 768 rfl rfl).symm k) = ix2 k e :=
  funext fun a => Fin.ext (by
    match a with
    | ⟨0, _⟩ => exact (rhs_row _ _).trans (contrEquiv1_symm_val dot_S256x768_S768x768_S256x768_1_0_0_1_n_n 768 rfl rfl k)
    | ⟨1, _⟩ => exact rhs_col _ _)

/-- A [1,768] row flattened to [768], put back as [1,768] and spread over 256 rows reads, at `(p, k)`, the row at `k`. -/
theorem spread_row (row : FVec Ideal S1x768 .f32) (p : Fin 256) (k : Fin 768) :
    broadcastTo S256x768 (shapeCast S1x768 (shapeCast S768 row shapeCasts_S1x768_S768) shapeCasts_S768_S1x768)
      broadcasts_S1x768_S256x768 (ix2 p k) = row (ix2 (0 : Fin 1) k) := by
  rw [ValueIdx.broadcastTo_1b_ab_apply, ValueIdx.shapeCast_a_1a_apply, ValueIdx.shapeCast_1a_a_apply]

/-- The body's arithmetic for one span, from the row tile `v1`, the span's query row `row`, the transposed weight `v5`
    and the bias row `v7`, read at `(p, e)`. -/
theorem span_at (v1 : FVec Ideal S256x768 .f32) (v5 : FVec Ideal S768x768 .bf16) (v7 : FVec Ideal S1x768 .f32)
    (row : FVec Ideal S1x768 .f32) (p : Fin 256) (e : Fin 768) :
    maximumf (addf (matmul dot_S256x768_S768x768_S256x768_1_0_0_1_n_n none
          (truncf .bf16 (mulf v1 (broadcastTo S256x768 (shapeCast S1x768 (shapeCast S768 row shapeCasts_S1x768_S768)
            shapeCasts_S768_S1x768) broadcasts_S1x768_S256x768)) bitsLt_bf16_f32)
          v5 (constant S256x768 .f32 0x00000000#32))
        (broadcastTo S256x768 v7 broadcasts_S1x768_S256x768))
      (broadcast S256x768 (Scalar.ofBits .f32 0x00000000#32)) (ix2 p e)
    = max ((∑ k : Fin 768, (v1 (ix2 p k) * row (ix2 (0 : Fin 1) k)) * v5 (ix2 k e)) + v7 (ix2 (0 : Fin 1) e)) 0 := by
  rw [maximumf_apply, addf_apply, broadcast_apply, ValueIdx.broadcastTo_1b_ab_apply]
  simp only [matmul]
  rw [matmul_zero_apply_of_idx dot_S256x768_S768x768_S256x768_1_0_0_1_n_n 768 rfl rfl none _ v5 (ix2 p e)
    (fun k => ix2 p k) (fun k => ix2 k e) (lhs_idx p e) (rhs_idx p e)]
  show max ((∑ k : Fin 768, _) + _) (Ideal.ofBits .f32 0x00000000#32) = _
  rw [Ideal.ofBits_zero_f32]
  refine congrArg (fun z => max (z + v7 (ix2 (0 : Fin 1) e)) 0) (Finset.sum_congr rfl fun k _ => ?_)
  rw [truncf_apply, mulf_apply, spread_row]

end Cert.KernelIdeal.Span

end
-- ==== Proof.SpanBlock.lean ====
/-
  What the body leaves in the output block.

  The body writes twelve [256,768] pieces side by side into its [256, 12·768] output block, span `s` at columns
  `s·768 … s·768 + 767`. Each piece is its span's entry (SpanEntry), so the whole block is ONE function of the block
  index `(p, c)`: the entry of span `c / 768` at row `p` and column `c % 768`.
-/
import proofs.«109428_j5995774345592_2_alg».proof.Proof.Gen.KernelIdeal.Frame
import proofs.«109428_j5995774345592_2_alg».proof.Proof.SpanEntry

set_option maxRecDepth 16384

noncomputable section

namespace Cert.KernelIdeal.Span

open Idealize.ShloMosaic Idealize.ShloMosaic.ValueIdx Cert.KernelIdeal Cert.KernelIdeal.Gen

/-! ## The body's loads are the staged blocks -/

theorem zero_off : (![0, 0] : Fin 2 → Nat) = fun _ => 0 :=
  funext fun a => by match a with | ⟨0, _⟩ => rfl | ⟨1, _⟩ => rfl

/-- The row tile as loaded and re-cast to its own shape is the staged block. -/
theorem tile_in (x0 : Vec Ideal S256x768 .f32) : k0_pay4 (View.ld x0 r0_0) = x0 := by
  unfold k0_pay4; rw [shapeCast_self, View.ld_unit_zero (S := S256x768) zero_off]
/-- So are the query rows, -/
theorem query_in (x1 : Vec Ideal S12x768 .f32) : k0_pay5 (View.ld x1 r0_1) = x1 := by
  unfold k0_pay5; rw [shapeCast_self, View.ld_unit_zero (S := S12x768) zero_off]
/-- the transposed weight, -/
theorem weight_in (x2 : Vec Ideal S768x768 .bf16) : k0_pay6 (View.ld x2 r0_2) = x2 := by
  unfold k0_pay6; rw [shapeCast_self, View.ld_unit_zero (S := S768x768) zero_off]
/-- and the bias row. -/
theorem bias_in (x3 : Vec Ideal S1x768 .f32) : k0_pay7 (View.ld x3 r0_3) = x3 := by
  unfold k0_pay7; rw [shapeCast_self, View.ld_unit_zero (S := S1x768) zero_off]

/-! ## Each span's arithmetic is its entry -/

/-- Row `s` of the twelve query rows, cut out as a [1,768] row, reads the query at `(s, k)`. -/
theorem query_row (q : FVec Ideal S12x768 .f32) (s : Fin 12) (o : Nat) (ho : s.val = o) (h : S12x768.Slices ![o, 0] S1x768)
    (k : Fin 768) : extractStridedSlice S1x768 ![o, 0] q h (ix2 (0 : Fin 1) k) = q (ix2 s k) :=
  ValueIdx.slice2_axis0_apply o q h (0 : Fin 1) k s (by rw [ho]; rfl)

/-- One span's arithmetic from a row that is query row `s` is span `s`'s entry. -/
theorem span_entry (v1 : FVec Ideal S256x768 .f32) (v3 : FVec Ideal S12x768 .f32) (v5 : FVec Ideal S768x768 .bf16)
    (v7 : FVec Ideal S1x768 .f32) (s : Fin 12) (row : FVec Ideal S1x768 .f32)
    (hrow : ∀ k : Fin 768, row (ix2 (0 : Fin 1) k) = v3 (ix2 s k)) (p : Fin 256) (e : Fin 768) :
    maximumf (addf (matmul dot_S256x768_S768x768_S256x768_1_0_0_1_n_n none
          (truncf .bf16 (mulf v1 (broadcastTo S256x768 (shapeCast S1x768 (shapeCast S768 row shapeCasts_S1x768_S768)
            shapeCasts_S768_S1x768) broadcasts_S1x768_S256x768)) bitsLt_bf16_f32)
          v5 (constant S256x768 .f32 0x00000000#32))
        (broadcastTo S256x768 v7 broadcasts_S1x768_S256x768))
      (broadcast S256x768 (Scalar.ofBits .f32 0x00000000#32)) (ix2 p e)
    = entry v1 v3 v5 v7 s p e := by
  rw [span_at]; unfold entry; simp only [hrow]

section Pieces
variable (v1 : FVec Ideal S256x768 .f32) (v3 : FVec Ideal S12x768 .f32) (v5 : FVec Ideal S768x768 .bf16)
  (v7 : FVec Ideal S1x768 .f32) (v0 : Vec Ideal S256x768 .f32) (v2 : Vec Ideal S12x768 .f32)
  (v4 : Vec Ideal S768x768 .bf16) (v6 : Vec Ideal S1x768 .f32) (p : Fin 256) (e : Fin 768)

theorem span0_at : k0_pay8 v0 v2 v4 v6 (ix2 p e) = entry (k0_pay4 v0) (k0_pay5 v2) (k0_pay6 v4) (k0_pay7 v6) 0 p e := by
  unfold k0_pay8
  exact span_entry _ _ _ _ 0 _ (fun k => query_row _ 0 0 rfl slices_S12x768_o0_0_S1x768 k) p e
theorem span1_at : k0_pay9 v0 v2 v4 v6 (ix2 p e) = entry (k0_pay4 v0) (k0_pay5 v2) (k0_pay6 v4) (k0_pay7 v6) 1 p e := by
  unfold k0_pay9
  exact span_entry _ _ _ _ 1 _ (fun k => query_row _ 1 1 rfl slices_S12x768_o1_0_S1x768 k) p e
theorem span2_at : k0_pay12 (k0_pay10 v0 v2 v4) (k0_pay11 v6) (ix2 p e)
    = entry (k0_pay4 v0) (k0_pay5 v2) (k0_pay6 v4) (k0_pay7 v6) 2 p e := by
  unfold k0_pay12 k0_pay10 k0_pay11
  exact span_entry _ _ _ _ 2 _ (fun k => query_row _ 2 2 rfl slices_S12x768_o2_0_S1x768 k) p e
theorem span3_at : k0_pay13 v1 v3 v5 v7 (ix2 p e) = entry v1 v3 v5 v7 3 p e := by
  unfold k0_pay13
  exact span_entry _ _ _ _ 3 _ (fun k => query_row _ 3 3 rfl slices_S12x768_o3_0_S1x768 k) p e
theorem span4_at : k0_pay14 v1 v3 v5 v7 (ix2 p e) = entry v1 v3 v5 v7 4 p e := by
  unfold k0_pay14
  exact span_entry _ _ _ _ 4 _ (fun k => query_row _ 4 4 rfl slices_S12x768_o4_0_S1x768 k) p e
theorem span5_at : k0_pay15 v1 v3 v5 v7 (ix2 p e) = entry v1 v3 v5 v7 5 p e := by
  unfold k0_pay15
  exact span_entry _ _ _ _ 5 _ (fun k => query_row _ 5 5 rfl slices_S12x768_o5_0_S1x768 k) p e
theorem span6_at : k0_pay17 v1 v5 v7 (k0_pay16 v3) (ix2 p e) = entry v1 v3 v5 v7 6 p e := by
  unfold k0_pay17 k0_pay16
  exact span_entry _ _ _ _ 6 _ (fun k => query_row _ 6 6 rfl slices_S12x768_o6_0_S1x768 k) p e
theorem span7_at : k0_pay18 v1 v3 v5 v7 (ix2 p e) = entry v1 v3 v5 v7 7 p e := by
  unfold k0_pay18
  exact span_entry _ _ _ _ 7 _ (fun k => query_row _ 7 7 rfl slices_S12x768_o7_0_S1x768 k) p e
theorem span8_at : k0_pay19 v1 v3 v5 v7 (ix2 p e) = entry v1 v3 v5 v7 8 p e := by
  unfold k0_pay19
  exact span_entry _ _ _ _ 8 _ (fun k => query_row _ 8 8 rfl slices_S12x768_o8_0_S1x768 k) p e
theorem span9_at : k0_pay1 (k0_pay20 v1 v3 v5 v7) (ix2 p e) = entry v1 v3 v5 v7 9 p e := by
  unfold k0_pay1 k0_pay20
  exact span_entry _ _ _ _ 9 _ (fun k => query_row _ 9 9 rfl slices_S12x768_o9_0_S1x768 k) p e
theorem span10_at : k0_pay2 v1 v3 v5 v7 (ix2 p e) = entry v1 v3 v5 v7 10 p e := by
  unfold k0_pay2
  exact span_entry _ _ _ _ 10 _ (fun k => query_row _ 10 10 rfl slices_S12x768_o10_0_S1x768 k) p e
theorem span11_at : k0_pay3 v1 v3 v5 v7 (ix2 p e) = entry v1 v3 v5 v7 11 p e := by
  unfold k0_pay3
  exact span_entry _ _ _ _ 11 _ (fun k => query_row _ 11 11 rfl slices_S12x768_o11_0_S1x768 k) p e

end Pieces

/-! ## The block as one function of its index -/

/-- The output block at block index `(p, c)`: span `c / 768`'s entry at row `p`, column `c % 768`. -/
def block (x0 : Vec Ideal S256x768 .f32) (x1 : Vec Ideal S12x768 .f32) (x2 : Vec Ideal S768x768 .bf16)
    (x3 : Vec Ideal S1x768 .f32) (y : S256x9216.Idx) : EReal :=
  entry x0 x1 x2 x3 ⟨(y 1).val / 768, by have := idx2_lt1 y; omega⟩ (y 0) ⟨(y 1).val % 768, Nat.mod_lt _ (by decide)⟩

/-- At a block index whose row is `p` and whose column is `s·768 + e` the block is span `s`'s entry `(p, e)`. -/
theorem block_at (x0 : Vec Ideal S256x768 .f32) (x1 : Vec Ideal S12x768 .f32) (x2 : Vec Ideal S768x768 .bf16)
    (x3 : Vec Ideal S1x768 .f32) (s : Fin 12) (p : Fin 256) (e : Fin 768) (y : S256x9216.Idx)
    (h0 : (y 0).val = p.val) (h1 : (y 1).val = s.val * 768 + e.val) :
    block x0 x1 x2 x3 y = entry x0 x1 x2 x3 s p e := by
  unfold block
  have hs : (⟨(y 1).val / 768, by have := idx2_lt1 y; omega⟩ : Fin 12) = s := Fin.ext (by
    show (y 1).val / 768 = s.val
    have := e.isLt; omega)
  have hp : y 0 = p := Fin.ext h0
  have he : (⟨(y 1).val % 768, Nat.mod_lt _ (by decide)⟩ : Fin 768) = e := Fin.ext (by
    show (y 1).val % 768 = e.val
    have := e.isLt; omega)
  rw [hs, hp, he]

/-- A [256,768] piece stored at columns `o = s·768 …` whose payload is span `s`'s entry agrees with the block
    function on its rectangle. -/
theorem piece_ok (x0 : Vec Ideal S256x768 .f32) (x1 : Vec Ideal S12x768 .f32) (x2 : Vec Ideal S768x768 .bf16)
    (x3 : Vec Ideal S1x768 .f32) (s : Fin 12) (o : Nat) (ho : o = s.val * 768)
    (inb : ∀ a, (![0, o] : Fin 2 → Nat) a + S256x768.size a ≤ S256x9216.size a)
    (pay : FVec Ideal S256x768 .f32) (hpay : ∀ (p : Fin 256) (e : Fin 768), pay (ix2 p e) = entry x0 x1 x2 x3 s p e)
    (x : (Rect.unit (s := S256x9216) ![0, o] S256x768.size inb).shape.Idx) :
    pay x = block x0 x1 x2 x3 ((Rect.unit (s := S256x9216) ![0, o] S256x768.size inb).emb x) := by
  obtain ⟨p, e, rfl⟩ : ∃ (p : Fin 256) (e : Fin 768), x = ix2 p e := ⟨x 0, x 1, eq_ix2 x⟩
  rw [hpay]
  refine (block_at x0 x1 x2 x3 s p e _ ?_ ?_).symm
  · show 0 + 1 * p.val = p.val
    omega
  · show o + 1 * e.val = s.val * 768 + e.val
    omega

/-- THE BLOCK: what the twelve stores leave, last first, is the block function. -/
theorem out_eq_block (x0 : Vec Ideal S256x768 .f32) (x1 : Vec Ideal S12x768 .f32) (x2 : Vec Ideal S768x768 .bf16)
    (x3 : Vec Ideal S1x768 .f32) : out0_4 x0 x1 x2 x3 = block x0 x1 x2 x3 := by
  funext y
  unfold out0_4
  refine View.canon_apply_of_pieces (Val := Elt Ideal) (S := S256x9216) (e := EltTy.f32) (block x0 x1 x2 x3) _ ?_ y
    (cover0_4 _ _ _ _ _ _ _ _ _ _ _ _ y)
  intro pc hpc
  simp only [List.mem_cons, List.not_mem_nil, or_false] at hpc
  rcases hpc with rfl | rfl | rfl | rfl | rfl | rfl | rfl | rfl | rfl | rfl | rfl | rfl
  · exact piece_ok x0 x1 x2 x3 11 8448 rfl inb_S256x9216_S256x768_0_8448 _ (fun p e => by
      rw [tile_in, query_in, weight_in, bias_in]; exact span11_at x0 x1 x2 x3 p e)
  · exact piece_ok x0 x1 x2 x3 10 7680 rfl inb_S256x9216_S256x768_0_7680 _ (fun p e => by
      rw [tile_in, query_in, weight_in, bias_in]; exact span10_at x0 x1 x2 x3 p e)
  · exact piece_ok x0 x1 x2 x3 9 6912 rfl inb_S256x9216_S256x768_0_6912 _ (fun p e => by
      rw [tile_in, query_in, weight_in, bias_in]; exact span9_at x0 x1 x2 x3 p e)
  · exact piece_ok x0 x1 x2 x3 8 6144 rfl inb_S256x9216_S256x768_0_6144 _ (fun p e => by
      rw [tile_in, query_in, weight_in, bias_in]; exact span8_at x0 x1 x2 x3 p e)
  · exact piece_ok x0 x1 x2 x3 7 5376 rfl inb_S256x9216_S256x768_0_5376 _ (fun p e => by
      rw [tile_in, query_in, weight_in, bias_in]; exact span7_at x0 x1 x2 x3 p e)
  · exact piece_ok x0 x1 x2 x3 6 4608 rfl inb_S256x9216_S256x768_0_4608 _ (fun p e => by
      rw [tile_in, query_in, weight_in, bias_in]; exact span6_at x0 x1 x2 x3 p e)
  · exact piece_ok x0 x1 x2 x3 5 3840 rfl inb_S256x9216_S256x768_0_3840 _ (fun p e => by
      rw [tile_in, query_in, weight_in, bias_in]; exact span5_at x0 x1 x2 x3 p e)
  · exact piece_ok x0 x1 x2 x3 4 3072 rfl inb_S256x9216_S256x768_0_3072 _ (fun p e => by
      rw [tile_in, query_in, weight_in, bias_in]; exact span4_at x0 x1 x2 x3 p e)
  · exact piece_ok x0 x1 x2 x3 3 2304 rfl inb_S256x9216_S256x768_0_2304 _ (fun p e => by
      rw [tile_in, query_in, weight_in, bias_in]; exact span3_at x0 x1 x2 x3 p e)
  · exact piece_ok x0 x1 x2 x3 2 1536 rfl inb_S256x9216_S256x768_0_1536 _ (fun p e =>
      (span2_at (View.ld x0 r0_0) (View.ld x1 r0_1) (View.ld x2 r0_2) (View.ld x3 r0_3) p e).trans (by
        rw [tile_in, query_in, weight_in, bias_in]))
  · exact piece_ok x0 x1 x2 x3 1 768 rfl inb_S256x9216_S256x768_0_768 _ (fun p e =>
      (span1_at (View.ld x0 r0_0) (View.ld x1 r0_1) (View.ld x2 r0_2) (View.ld x3 r0_3) p e).trans (by
        rw [tile_in, query_in, weight_in, bias_in]))
  · exact piece_ok x0 x1 x2 x3 0 0 rfl inb_S256x9216_S256x768_0_0 _ (fun p e =>
      (span0_at (View.ld x0 r0_0) (View.ld x1 r0_1) (View.ld x2 r0_2) (View.ld x3 r0_3) p e).trans (by
        rw [tile_in, query_in, weight_in, bias_in]))

end Cert.KernelIdeal.Span

end
-- ==== Proof.RegionValue.lean ====
/-
  The region's result array.

  The region runs over 16 row tiles of 256 rows. At tile `t` the row-tile window holds rows `t·256 … t·256 + 255` of
  the flattened hidden states, the other three input windows hold their whole arrays, and the output window's block is
  rows `t·256 …` of the [4096, 12·768] result. What tile `t` writes back is therefore rows `t·256 …` of ONE function of
  the four arrays the region is launched on: at `(n, c)`, span `c / 768`'s entry for row `n` and column `c % 768`.
  The sixteen blocks tile the result array, so it ends holding that function.
-/
import proofs.«109428_j5995774345592_2_alg».proof.Proof.Gen.KernelIdeal.Frame
import proofs.«109428_j5995774345592_2_alg».proof.Proof.SpanBlock
import Idealize.ShloMosaic.Lib.Pipeline.Value

set_option maxRecDepth 16384

noncomputable section

namespace Cert.KernelIdeal.Region

open Idealize.ShloMosaic Idealize.ShloMosaic.TcCoe Idealize.ShloMosaic.ValueIdx Idealize.SL.Sem
open Cert.KernelIdeal Cert.KernelIdeal.Gen Cert.KernelIdeal.Span
open Idealize.ShloMosaic.Pipeline (Dat)

/-- The region's result at `(n, c)` from the flattened hidden states `H`, the query rows `Q`, the transposed weight
    `Wt` and the bias row `B`: with `s = c / 768` and `e = c % 768`, the clamped sum over `k` of
    `(H[n,k] · Q[s,k]) · Wt[k,e]` plus `B[0,e]`. -/
def flat (H : S4096x768.Idx → EReal) (Q : S12x768.Idx → EReal) (Wt : S768x768.Idx → EReal) (B : S1x768.Idx → EReal)
    (i : S4096x9216.Idx) : EReal :=
  max ((∑ k : Fin 768, (H (ix2 (i 0) k) * Q (ix2 (⟨(i 1).val / 768, by have := idx2_lt1 i; omega⟩ : Fin 12) k))
      * Wt (ix2 k (⟨(i 1).val % 768, Nat.mod_lt _ (by decide)⟩ : Fin 768)))
    + B (ix2 (0 : Fin 1) (⟨(i 1).val % 768, Nat.mod_lt _ (by decide)⟩ : Fin 768))) 0

/-- A block whose row tile holds row `i 0` of `H` at its row `y 0`, and whose other blocks are `Q`, `Wt`, `B`, is `flat`
    at an array index `i` with the block index's column. -/
theorem block_eq_flat (H : S4096x768.Idx → EReal) (Q : S12x768.Idx → EReal) (Wt : S768x768.Idx → EReal)
    (B : S1x768.Idx → EReal) (x0 : Vec Ideal S256x768 .f32) (x1 : Vec Ideal S12x768 .f32) (x2 : Vec Ideal S768x768 .bf16)
    (x3 : Vec Ideal S1x768 .f32) (y : S256x9216.Idx) (i : S4096x9216.Idx)
    (h0 : ∀ k : Fin 768, x0 (ix2 (y 0) k) = H (ix2 (i 0) k))
    (h1 : ∀ (s : Fin 12) (k : Fin 768), x1 (ix2 s k) = Q (ix2 s k))
    (h2 : ∀ k e : Fin 768, x2 (ix2 k e) = Wt (ix2 k e))
    (h3 : ∀ e : Fin 768, x3 (ix2 (0 : Fin 1) e) = B (ix2 (0 : Fin 1) e))
    (hi : (i 1).val = (y 1).val) :
    block x0 x1 x2 x3 y = flat H Q Wt B i := by
  unfold block entry flat
  simp only [h0, h1, h2, h3, hi]

variable (m : (ℓ : Loc nD τ sig) → Buf (Elt Ideal) ℓ)

/-- The printed index maps over the grid: the row tile and the output move with the point, the rest stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT TILE `t` WRITES BACK is block `t` of `flat` of the arrays as the region finds them. -/
theorem flushed_eq (c : Dev nD) (t : Fin cfg0.N) :
    (dats m 0 c).flushed 4 t = ((cfg0.win 4).blk t).view.read (Elt Ideal)
      (flat (V m c main_v0) (V m c main_v1) (V m c main_v3) (V m c main_v4)) := by
  show (cfg0.win 4).cut (grid0.coords t) ((dats m 0 c).after 4 t) = _
  rw [after0_4]
  obtain ⟨a0, a1, b0, b1, c0, c1, d0, d1, e0, e1⟩ := idx_facts t
  funext y
  show out0_4 (iblk m c 0 t) (iblk m c 1 t) (iblk m c 2 t) (iblk m c 3 t) y
    = flat (V m c main_v0) (V m c main_v1) (V m c main_v3) (V m c main_v4) (((cfg0.win 4).blk t).view.emb y)
  refine (congrFun (out_eq_block (iblk m c 0 t) (iblk m c 1 t) (iblk m c 2 t) (iblk m c 3 t)) y).trans ?_
  refine block_eq_flat (V m c main_v0) (V m c main_v1) (V m c main_v3) (V m c main_v4) (iblk m c 0 t) (iblk m c 1 t)
    (iblk m c 2 t) (iblk m c 3 t) y (((cfg0.win 4).blk t).view.emb y) (fun k => ?_) (fun s k => ?_) (fun k e => ?_)
    (fun e => ?_) ?_
  · show V m c main_v0 (((cfg0.win 0).blk t).view.emb (ix2 (y 0) k))
      = V m c main_v0 (ix2 ((((cfg0.win 4).blk t).view.emb y) 0) k)
    refine congrArg (V m c main_v0) (funext fun a => Fin.ext ?_)
    match a with
    | ⟨0, _⟩ =>
      show win0_0.index t (0 : Fin 2) * 256 + 1 * (y 0).val = win0_4.index t (0 : Fin 2) * 256 + 1 * (y 0).val
      omega
    | ⟨1, _⟩ =>
      show win0_0.index t (1 : Fin 2) * 768 + 1 * k.val = k.val
      omega
  · show V m c main_v1 (((cfg0.win 1).blk t).view.emb (ix2 s k)) = V m c main_v1 (ix2 s k)
    refine congrArg (V m c main_v1) (funext fun a => Fin.ext ?_)
    match a with
    | ⟨0, _⟩ =>
      show win0_1.index t (0 : Fin 2) * 12 + 1 * s.val = s.val
      omega
    | ⟨1, _⟩ =>
      show win0_1.index t (1 : Fin 2) * 768 + 1 * k.val = k.val
      omega
  · show V m c main_v3 (((cfg0.win 2).blk t).view.emb (ix2 k e)) = V m c main_v3 (ix2 k e)
    refine congrArg (V m c main_v3) (funext fun a => Fin.ext ?_)
    match a with
    | ⟨0, _⟩ =>
      show win0_2.index t (0 : Fin 2) * 768 + 1 * k.val = k.val
      omega
    | ⟨1, _⟩ =>
      show win0_2.index t (1 : Fin 2) * 768 + 1 * e.val = e.val
      omega
  · show V m c main_v4 (((cfg0.win 3).blk t).view.emb (ix2 (0 : Fin 1) e)) = V m c main_v4 (ix2 (0 : Fin 1) e)
    refine congrArg (V m c main_v4) (funext fun a => Fin.ext ?_)
    match a with
    | ⟨0, _⟩ =>
      show win0_3.index t (0 : Fin 2) * 1 + 1 * 0 = 0
      omega
    | ⟨1, _⟩ =>
      show win0_3.index t (1 : Fin 2) * 768 + 1 * e.val = e.val
      omega
  · show win0_4.index t (1 : Fin 2) * 9216 + 1 * (y 1).val = (y 1).val
    omega

/-- An index of the result array is in tile `t`'s block iff each coordinate is in the block's range on its axis. -/
theorem mem_blk (t : Fin cfg0.N) (i : S4096x9216.Idx) :
    i ∈ ((cfg0.win 4).blk t).view.set ↔ ∀ a : Fin 2, win0_4.index t a * S256x9216.size a ≤ (i a).val
      ∧ (i a).val < win0_4.index t a * S256x9216.size a + S256x9216.size a := by
  show i ∈ ((View.whole main_v5).slice (win0_4.rect t)).set ↔ _
  rw [View.set_slice_whole, Rect.mem_set_unit]
  exact Iff.rfl

/-- Row `n` of the result array is in tile `n / 256`'s block: the sixteen blocks tile the array. -/
theorem cover (i : S4096x9216.Idx) :
    ∃ t : Fin cfg0.N, (cfg0.win 4).flush t = true ∧ i ∈ ((cfg0.win 4).blk t).view.set := by
  have hi0 : (i 0).val < 4096 := idx2_lt0 i
  have hi1 : (i 1).val < 9216 := idx2_lt1 i
  have ht : (i 0).val / 256 < cfg0.N := by
    show (i 0).val / 256 < grid0.N
    rw [N_0]; omega
  obtain ⟨-, -, -, -, -, -, -, -, e0, e1⟩ := idx_facts ⟨(i 0).val / 256, ht⟩
  have e0' : win0_4.index ⟨(i 0).val / 256, ht⟩ (0 : Fin 2) = (i 0).val / 256 := e0
  refine ⟨⟨(i 0).val / 256, ht⟩, flush0_4 _, ?_⟩
  rw [mem_blk]
  intro a
  match a with
  | ⟨0, _⟩ =>
    show win0_4.index ⟨(i 0).val / 256, ht⟩ (0 : Fin 2) * 256 ≤ (i 0).val
      ∧ (i 0).val < win0_4.index ⟨(i 0).val / 256, ht⟩ (0 : Fin 2) * 256 + 256
    omega
  | ⟨1, _⟩ =>
    show win0_4.index ⟨(i 0).val / 256, ht⟩ (1 : Fin 2) * 9216 ≤ (i 1).val
      ∧ (i 1).val < win0_4.index ⟨(i 0).val / 256, ht⟩ (1 : Fin 2) * 9216 + 9216
    omega

/-- THE RESULT ARRAY after the region: `flat` of the arrays the region is launched on. -/
theorem final (c : Dev nD) :
    (dats m 0 c).arrAt 4 cfg0.N = flat (V m c main_v0) (V m c main_v1) (V m c main_v3) (V m c main_v4) :=
  (dats m 0 c).arrAt_eq_of_cover 4 _ (fun t _ => flushed_eq m c t) cover

end Cert.KernelIdeal.Region

end
-- ==== Proof.Spec.lean ====
/-
  The result, as one function of the four argument arrays.

  For a token `(b, l)`, a span `s` and an output feature `e`,

      out[b,l,s,e] = max (Σ_k (h[b,l,k] · q[k,s]) · W[e,k] + bias[e]) 0

  on the extended reals: the hidden state scaled feature by feature by the span's query column, passed through the
  linear layer `W` (applied as `x · Wᵀ`), shifted by the bias and clamped at zero. Both programs compute exactly this
  sum of products, in the same association, so no law beyond re-indexing is needed and the inputs' finiteness is never used.
-/
import Idealize.ShloMosaic.PureOps.Ideal
import Idealize.ShloMosaic.Lib.ValueIdx

noncomputable section

namespace Cert.SpanQuery

open Idealize.ShloMosaic Idealize.ShloMosaic.ValueIdx

/-- Entry `(b, l, s, e)` of the result. -/
def result (h : (⟨3, ![8, 512, 768]⟩ : Shape).Idx → EReal) (q : (⟨2, ![768, 12]⟩ : Shape).Idx → EReal)
    (W : (⟨2, ![768, 768]⟩ : Shape).Idx → EReal) (bias : (⟨1, ![768]⟩ : Shape).Idx → EReal)
    (i : (⟨4, ![8, 512, 12, 768]⟩ : Shape).Idx) : EReal :=
  max ((∑ k : Fin 768, (h (ix3 (i 0) (i 1) k) * q (ix2 k (i 2))) * W (ix2 (i 3) k)) + bias (ix1 (i 3))) 0

end Cert.SpanQuery

end
-- ==== Proof.KernelRun.lean ====
/-
  The kernel's result.

  Around the region the program only re-lays arrays: before it, the hidden states are flattened to [4096,768] (token
  `(b, l)` becomes row `b·512 + l`), the query segments and the weight are transposed (the weight also narrowed to
  bf16, the identity on the extended reals) and the bias becomes a [1,768] row; after it, the [4096, 12·768] result is
  reshaped to [8,512,12,768], so entry `(b, l, s, e)` is the region's entry at row `b·512 + l`, column `s·768 + e`.
  Read through these, the region's result is the result function of the four arguments.
-/
import proofs.«109428_j5995774345592_2_alg».proof.Proof.RegionValue
import proofs.«109428_j5995774345592_2_alg».proof.Proof.Spec
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.KernelIdeal.Region Cert.SpanQuery

/-- The region's result function of re-laid arrays, read where the final reshape reads it, is the result function:
    row `b·512 + l` is token `(b, l)`, column `s·768 + e` is span `s`, feature `e`. -/
theorem flat_eq_result (h : S8x512x768.Idx → EReal) (q : S768x12.Idx → EReal) (W : S768x768.Idx → EReal)
    (bias : S768.Idx → EReal) (H : S4096x768.Idx → EReal) (Q : S12x768.Idx → EReal) (Wt : S768x768.Idx → EReal)
    (B : S1x768.Idx → EReal)
    (hH : ∀ (b : Fin 8) (l : Fin 512) (k : Fin 768) (n : Fin 4096), n.val = b.val * 512 + l.val →
      H (ix2 n k) = h (ix3 b l k))
    (hQ : ∀ (s : Fin 12) (k : Fin 768), Q (ix2 s k) = q (ix2 k s))
    (hW : ∀ k e : Fin 768, Wt (ix2 k e) = W (ix2 e k))
    (hB : ∀ e : Fin 768, B (ix2 (0 : Fin 1) e) = bias (ix1 e))
    (i : S8x512x12x768.Idx) (j : S4096x9216.Idx)
    (hj0 : (j 0).val = (i 0).val * 512 + (i 1).val) (hj1 : (j 1).val = (i 2).val * 768 + (i 3).val) :
    flat H Q Wt B j = result h q W bias i := by
  have h3 : (i 3).val < 768 := (i 3).isLt
  have hs : ∀ pf, (⟨(j 1).val / 768, pf⟩ : Fin 12) = i 2 := fun pf => Fin.ext (by
    show (j 1).val / 768 = (i 2).val
    omega)
  have he : ∀ pf, (⟨(j 1).val % 768, pf⟩ : Fin 768) = i 3 := fun pf => Fin.ext (by
    show (j 1).val % 768 = (i 3).val
    omega)
  have hrow : ∀ k : Fin 768, H (ix2 (j 0) k) = h (ix3 (i 0) (i 1) k) := fun k => hH (i 0) (i 1) k (j 0) hj0
  unfold flat result
  simp only [hs, he, hrow]
  refine congrArg (fun z => max z 0) (congrArg₂ (· + ·) (Finset.sum_congr rfl fun k _ => ?_) (hB (i 3)))
  exact congrArg₂ (· * ·) (congrArg (h (ix3 (i 0) (i 1) k) * ·) (hQ (i 2) k)) (hW k (i 3))

variable (m : (ℓ : Loc nD τ sig) → Buf (Elt Ideal) ℓ) (ρ : Dev nD → PrngReg)

/-! ## The arrays the region is launched on -/

theorem hidden_in (c : Dev nD) : (V m c main_v0 : S4096x768.Idx → EReal)
    = shapeCast S4096x768 (m ((c.tc : Thread nD τ).loc main_arg0)) shapeCasts_S8x512x768_S4096x768 := by
  show StableHlo.after hostOps0 (fun b => m (c, b)) (Proc.devRef .tc main_v0) = _
  after_results; rfl

theorem query_in (c : Dev nD) : (V m c main_v1 : S12x768.Idx → EReal)
    = transpose S12x768 [1, 0] (m ((c.tc : Thread nD τ).loc main_arg1)) transposes_S768x12_S12x768_1_0 := by
  show StableHlo.after hostOps0 (fun b => m (c, b)) (Proc.devRef .tc main_v1) = _
  after_results

theorem weight_in (c : Dev nD) : (V m c main_v3 : S768x768.Idx → EReal)
    = truncf (F := Ideal) .bf16 (transpose S768x768 [1, 0] (m ((c.tc : Thread nD τ).loc main_arg2)) transposes_S768x768_S768x768_1_0)
        bitsLt_bf16_f32 := by
  show StableHlo.after hostOps0 (fun b => m (c, b)) (Proc.devRef .tc main_v3) = _
  after_results

theorem bias_in (c : Dev nD) : (V m c main_v4 : S1x768.Idx → EReal)
    = shapeCast S1x768 (m ((c.tc : Thread nD τ).loc main_arg3)) shapeCasts_S768_S1x768 := by
  show StableHlo.after hostOps0 (fun b => m (c, b)) (Proc.devRef .tc main_v4) = _
  after_results; rfl

/-- Row `b·512 + l` of the flattened hidden states is token `(b, l)`. -/
theorem hidden_at (c : Dev nD) (b : Fin 8) (l : Fin 512) (k : Fin 768) (n : Fin 4096) (hn : n.val = b.val * 512 + l.val) :
    V m c main_v0 (ix2 n k) = (m ((c.tc : Thread nD τ).loc main_arg0)) (ix3 b l k) :=
  (congrFun (hidden_in m c) (ix2 n k)).trans (shapeCast_apply _ shapeCasts_S8x512x768_S4096x768 (ix2 n k) (ix3 b l k) (by
    rw [Shape.rowMajor_val_three, Shape.rowMajor_val_two]
    show (b.val * 512 + l.val) * 768 + k.val = n.val * 768 + k.val
    rw [hn]))

theorem query_at (c : Dev nD) (s : Fin 12) (k : Fin 768) : V m c main_v1 (ix2 s k) = (m ((c.tc : Thread nD τ).loc main_arg1)) (ix2 k s) :=
  (congrFun (query_in m c) (ix2 s k)).trans (ValueIdx.transpose_ix2_apply _ transposes_S768x12_S12x768_1_0 s k)

theorem weight_at (c : Dev nD) (k e : Fin 768) : V m c main_v3 (ix2 k e) = (m ((c.tc : Thread nD τ).loc main_arg2)) (ix2 e k) :=
  (congrFun (weight_in m c) (ix2 k e)).trans (ValueIdx.transpose_ix2_apply _ transposes_S768x768_S768x768_1_0 k e)

theorem bias_at (c : Dev nD) (e : Fin 768) : V m c main_v4 (ix2 (0 : Fin 1) e) = (m ((c.tc : Thread nD τ).loc main_arg3)) (ix1 e) :=
  (congrFun (bias_in m c) (ix2 (0 : Fin 1) e)).trans (ValueIdx.shapeCast_a_1a_apply _ shapeCasts_S768_S1x768 0 e)

/-! ## The result buffer -/

/-- THE RESULT: after the final reshape the result buffer holds the result function of the four arguments. -/
theorem result_eq (c : Dev nD) :
    (Pipeline.afterTail₀ cfgs (dats m) 0 (V0 m) [hostOps1] c main_v6 : S8x512x12x768.Idx → EReal)
      = result (m ((c.tc : Thread nD τ).loc main_arg0)) (m ((c.tc : Thread nD τ).loc main_arg1)) (m ((c.tc : Thread nD τ).loc main_arg2)) (m ((c.tc : Thread nD τ).loc main_arg3)) := by
  have harr : (Pipeline.withArrays (cfgs 0).spec c (V0 m c) (fun w => (dats m 0 c).arrAt w (cfgs 0).N)
      (Proc.devRef .tc main_v5) : S4096x9216.Idx → EReal)
      = flat (V m c main_v0) (V m c main_v1) (V m c main_v3) (V m c main_v4) :=
    (Pipeline.withArrays_arr spec0 launch0.win.arr_inj c _ _ 4).trans (final m c)
  unfold Pipeline.afterTail₀
  show StableHlo.after hostOps1 _ (Proc.devRef .tc main_v6) = _
  after_results
  funext i
  obtain ⟨b, l, s, e, rfl⟩ : ∃ (b : Fin 8) (l : Fin 512) (s : Fin 12) (e : Fin 768), i = ix4 b l s e :=
    ⟨i 0, i 1, i 2, i 3, eq_ix4 i⟩
  show shapeCast S8x512x12x768 (Pipeline.withArrays (cfgs 0).spec c (V0 m c)
      (fun w => (dats m 0 c).arrAt w (cfgs 0).N) (Proc.devRef .tc main_v5)) shapeCasts_S4096x9216_S8x512x12x768
      (ix4 b l s e) = _
  rw [harr]
  have hb := b.isLt; have hl := l.isLt; have hs := s.isLt; have he := e.isLt
  rw [shapeCast_apply _ shapeCasts_S4096x9216_S8x512x12x768 (ix4 b l s e)
    (ix2 (⟨b.val * 512 + l.val, by omega⟩ : Fin 4096) (⟨s.val * 768 + e.val, by omega⟩ : Fin 9216)) (by
      rw [Shape.rowMajor_val_two, Shape.rowMajor_val_four]
      show (b.val * 512 + l.val) * 9216 + (s.val * 768 + e.val) = ((b.val * 512 + l.val) * 12 + s.val) * 768 + e.val
      omega)]
  exact flat_eq_result _ _ _ _ _ _ _ _ (hidden_at m c) (query_at m c) (weight_at m c) (bias_at m c) (ix4 b l s e) _ rfl rfl

/-- THE RUN, read: every weakly fair execution of the kernel program terminates with the result buffer at the result
    function of the arguments as launched, and the arguments unchanged. -/
theorem run : θ_run defs (onTc (τ := τ) (main (F := Ideal))) ⟨m, fun _ => 0, ρ⟩ fun r => ∀ c : Dev nD,
      r.2.mem ((c.tc : Thread nD τ).loc main_v6)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.ReferenceValue.lean ====
/-
  The reference computes the result function.

  The reference spreads `h` over a new span axis and the transposed query segments over the token axes, multiplies
  them, contracts the hidden axis against `W`'s second axis, adds the spread bias and takes the maximum with a zero
  array. Read at `(b, l, s, e)`, each spread reads its operand at the coordinates it kept, so the entry is the result
  function's.
-/
import proofs.«109428_j5995774345592_2_alg».proof.Proof.Gen.ReferenceIdeal.Read
import proofs.«109428_j5995774345592_2_alg».proof.Proof.Spec

noncomputable section

namespace Cert.ReferenceIdeal.RefValue

open Idealize.ShloMosaic Idealize.ShloMosaic.ValueIdx Cert.ReferenceIdeal Cert.ReferenceIdeal.Read Cert.SpanQuery

/-- The hidden state is read at token `(b, l)` and hidden coordinate `k`. -/
theorem hidden_idx (i : S8x512x12x768.Idx) (k : Fin 768) :
    idx_main_v0 (idx_main_v3 (lidx_main_v6 i k)) = ix3 (i 0) (i 1) k :=
  funext fun a => Fin.ext (by match a with | ⟨0, _⟩ => rfl | ⟨1, _⟩ => rfl | ⟨2, _⟩ => rfl)

/-- The query segments are read at hidden coordinate `k` and span `s`. -/
theorem query_idx (i : S8x512x12x768.Idx) (k : Fin 768) :
    idx_main_v1 (idx_main_v2 (idx_main_v4 (lidx_main_v6 i k))) = ix2 k (i 2) :=
  funext fun a => Fin.ext (by match a with | ⟨0, _⟩ => rfl | ⟨1, _⟩ => rfl)

/-- The weight is read at output feature `e` and hidden coordinate `k`. -/
theorem weight_idx (i : S8x512x12x768.Idx) (k : Fin 768) : ridx_main_v6 i k = ix2 (i 3) k :=
  funext fun a => Fin.ext (by match a with | ⟨0, _⟩ => rfl | ⟨1, _⟩ => rfl)

/-- The bias is read at output feature `e`. -/
theorem bias_idx (i : S8x512x12x768.Idx) : idx_main_v7 (idx_main_v8 i) = ix1 (i 3) :=
  funext fun a => Fin.ext (by match a with | ⟨0, _⟩ => rfl)

/-- THE REFERENCE'S VALUE is the result function of its arguments. -/
theorem reference_eq (x0 : (⟨S8x512x768, .f32⟩ : BufTy).Contents (Elt Ideal)) (x1 : (⟨S768x12, .f32⟩ : BufTy).Contents (Elt Ideal))
    (x2 : (⟨S768x768, .f32⟩ : BufTy).Contents (Elt Ideal)) (x3 : (⟨S768, .f32⟩ : BufTy).Contents (Elt Ideal)) :
    val_main_v10 (F := Ideal) x0 x1 x2 x3 = result x0 x1 x2 x3 := by
  funext i
  rw [val_main_v10_apply, val_main_v9_apply, val_main_v6_apply, val_main_v8_apply, val_main_v7_apply,
    val_main_call0_v0_apply, val_main_call0_cst_apply]
  simp only [val_main_v5_apply, val_main_v3_apply, val_main_v0_apply, val_main_v4_apply, val_main_v2_apply,
    val_main_v1_apply, hidden_idx, query_idx, weight_idx, bias_idx, Ideal.ofBits_def, Ideal.ofBits_zero_f32,
    Ideal.maximumf_def, Ideal.addf_def, Ideal.mulf_def]
  rfl

end Cert.ReferenceIdeal.RefValue

end
-- ==== Proof.lean ====
/-
  SpanQuery: for every token `(b, l)`, span `s` and output feature `e`,

      out[b,l,s,e] = max (Σ_k (h[b,l,k] · q[k,s]) · W[e,k] + bias[e]) 0 .

  The kernel flattens the tokens to 4096 rows and runs over 16 tiles of 256 rows; in each tile, for each of the 12
  spans, it scales the row tile by the span's query row, multiplies by the transposed weight on the matrix unit,
  adds the bias, clamps at zero and stores the [256,768] piece at columns `s·768 …` of a [256, 12·768] block; the
  [4096, 12·768] result is reshaped to [8,512,12,768]. The reference spreads the two factors over a common
  [8,512,12,768] shape, multiplies them, contracts the hidden axis against `W`, adds the bias and clamps at zero.

  On the extended reals both are the same sum of the same products in the same association (the narrowing to bf16
  before the matrix unit is the identity there, and a matrix product into zeros is the plain sum), so the two results
  are one function of the arguments (Spec: `result`), entry by entry, for all inputs: the inputs' finiteness is not
  used. The idealized kernel is the kernel's own text read on the extended reals: nothing was rewritten.

  Modules: Spec (the result function) · SpanEntry, SpanBlock (one span's entry; the twelve pieces as one block
  function) · RegionValue (what each tile writes back, the cover, the region's result array) · KernelRun (the host
  lines around the region read at an index; the kernel's run) · ReferenceValue (the reference's value is the result
  function) · LibMatmulIdx (a matrix product into zeros as a sum over one contraction coordinate).
-/
import proofs.«109428_j5995774345592_2_alg».proof.Defs
import proofs.«109428_j5995774345592_2_alg».proof.Proof.Gen.Kernel
import proofs.«109428_j5995774345592_2_alg».proof.Proof.Gen.Kernel.Skeleton
import proofs.«109428_j5995774345592_2_alg».proof.Proof.Gen.Kernel.Launch
import proofs.«109428_j5995774345592_2_alg».proof.Proof.Gen.Kernel.Points
import proofs.«109428_j5995774345592_2_alg».proof.Proof.Gen.Kernel.Frame
import proofs.«109428_j5995774345592_2_alg».proof.Proof.Gen.KernelIdeal
import proofs.«109428_j5995774345592_2_alg».proof.Proof.Gen.KernelIdeal.Skeleton
import proofs.«109428_j5995774345592_2_alg».proof.Proof.Gen.KernelIdeal.Launch
import proofs.«109428_j5995774345592_2_alg».proof.Proof.Gen.KernelIdeal.Points
import proofs.«109428_j5995774345592_2_alg».proof.Proof.Gen.KernelIdeal.Frame
import proofs.«109428_j5995774345592_2_alg».proof.Proof.Gen.ReferenceIdeal
import proofs.«109428_j5995774345592_2_alg».proof.Proof.Gen.ReferenceIdeal.Run
import proofs.«109428_j5995774345592_2_alg».proof.Proof.Gen.ReferenceIdeal.Read
import proofs.«109428_j5995774345592_2_alg».proof.Proof.Gen.Pre_finite_inputs
import proofs.«109428_j5995774345592_2_alg».proof.Proof.KernelRun
import proofs.«109428_j5995774345592_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories that agree on the arguments, the kernel's result buffer and the reference's end at the same
    function of the arguments: the result function, entry by entry. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
